-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S32000000 : Shape := ⟨1, ![32000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S32000000 : S_.BroadcastsInDim S32000000 (![] : Fin 0 → Fin S32000000.rank)
  reducesTo_S32000000_S_d0 : S32000000.ReducesTo [0] S_

variable [Facts]

def fn {F : FTy → Type} [FloatOps F] (main_arg0 : FVec F S1000000 .f32) (main_arg1 : FVec F S1000000 .f32) (main_arg2 : IVec S32000000 32) (main_arg3 : IVec S32000000 32) (main_arg4 : FVec F S32000000 .f32) (main_arg5 : IVec S1000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S32000000 .f32 := Host.absf main_arg4
  let main_cst_2 : FVec F S_ .f32 := constant S_ .f32 0x7F800000#32
  let main_v10 : FVec F S32000000 .f32 := broadcastInDim S32000000 ![] bcast_S_S32000000 main_cst_2
  let main_v11 : IVec S32000000 1 := cmpf .olt main_v9 main_v10
  let main_c_3 : IVec S_ 1 := constantI S_ 1 1#1
  let main_v12 : IVec S_ 1 := (fun x v => Host.reduce IntOp.andi x v reducesTo_S32000000_S_d0 h_S_) main_v11 main_c_3
  let main_v13 : IVec S_ 1 := andi main_v8 main_v12
  main_v13
-- ==== Kernel.lean ====
abbrev S1000000 : Shape := ⟨1, ![1000000]⟩
abbrev S32000000 : Shape := ⟨1, ![32000000]⟩
abbrev S_ : Shape := ⟨0, ![]⟩
abbrev S32000000x1 : Shape := ⟨2, ![32000000, 1]⟩
abbrev S32768000 : Shape := ⟨1, ![32768000]⟩
abbrev S256000x128 : Shape := ⟨2, ![256000, 128]⟩
abbrev S16000x128 : Shape := ⟨2, ![16000, 128]⟩
abbrev S1048576 : Shape := ⟨1, ![1048576]⟩
abbrev S8192x128 : Shape := ⟨2, ![8192, 128]⟩
abbrev S1x1 : Shape := ⟨2, ![1, 1]⟩
abbrev S1024x128 : Shape := ⟨2, ![1024, 128]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 47
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S32000000, .i32⟩
  | .hbm, ⟨3, _⟩ => ⟨S32000000, .i32⟩
  | .hbm, ⟨4, _⟩ => ⟨S32000000, .f32⟩
  | .hbm, ⟨5, _⟩ => ⟨S1000000, .i32⟩
  | .hbm, ⟨6, _⟩ => ⟨S_, .i32⟩
  | .hbm, ⟨7, _⟩ => ⟨S32000000, .i32⟩
  | .hbm, ⟨8, _⟩ => ⟨S32000000, .i1⟩
  | .hbm, ⟨9, _⟩ => ⟨S_, .i32⟩
  | .hbm, ⟨10, _⟩ => ⟨S32000000, .i32⟩
  | .hbm, ⟨11, _⟩ => ⟨S32000000, .i32⟩
  | .hbm, ⟨12, _⟩ => ⟨S32000000, .i32⟩
  | .hbm, ⟨13, _⟩ => ⟨S32000000x1, .i32⟩
  | .hbm, ⟨14, _⟩ => ⟨S32000000, .f32⟩
  | .hbm, ⟨15, _⟩ => ⟨S_, .i32⟩
  | .hbm, ⟨16, _⟩ => ⟨S_, .f32⟩
  | .hbm, ⟨17, _⟩ => ⟨S32768000, .f32⟩
  | .hbm, ⟨18, _⟩ => ⟨S_, .i32⟩
  | .hbm, ⟨19, _⟩ => ⟨S_, .f32⟩
  | .hbm, ⟨20, _⟩ => ⟨S32768000, .f32⟩
  | .hbm, ⟨21, _⟩ => ⟨S256000x128, .f32⟩
  | .hbm, ⟨22, _⟩ => ⟨S256000x128, .f32⟩
  | .hbm, ⟨23, _⟩ => ⟨S256000x128, .f32⟩
  | .hbm, ⟨24, _⟩ => ⟨S32768000, .f32⟩
  | .hbm, ⟨25, _⟩ => ⟨S32000000, .f32⟩
  | .hbm, ⟨26, _⟩ => ⟨S_, .f32⟩
  | .hbm, ⟨27, _⟩ => ⟨S1000000, .f32⟩
  | .hbm, ⟨28, _⟩ => ⟨S32000000x1, .i32⟩
  | .hbm, ⟨29, _⟩ => ⟨S1000000, .f32⟩
  | .hbm, ⟨30, _⟩ => ⟨S_, .i32⟩
  | .hbm, ⟨31, _⟩ => ⟨S_, .f32⟩
  | .hbm, ⟨32, _⟩ => ⟨S1048576, .f32⟩
  | .hbm, ⟨33, _⟩ => ⟨S_, .i32⟩
  | .hbm, ⟨34, _⟩ => ⟨S_, .f32⟩
  | .hbm, ⟨35, _⟩ => ⟨S1048576, .f32⟩
  | .hbm, ⟨36, _⟩ => ⟨S8192x128, .f32⟩
  | .hbm, ⟨37, _⟩ => ⟨S8192x128, .f32⟩
  | .hbm, ⟨38, _⟩ => ⟨S1x1, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S16000x128, .f32⟩
  | .local _ .vmem, ⟨1, _⟩ => ⟨S16000x128, .f32⟩
  | .local _ .vmem, ⟨2, _⟩ => ⟨S16000x128, .f32⟩
  | .local _ .vmem, ⟨3, _⟩ => ⟨S16000x128, .f32⟩
  | .local _ .vmem, ⟨4, _⟩ => ⟨S16000x128, .f32⟩
  | .local _ .vmem, ⟨5, _⟩ => ⟨S16000x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1, .f32⟩
  | .local _ .vmem, ⟨11, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_v7 : Ref sig .tc := ⟨.hbm, 17, rfl⟩
abbrev main_c_2 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_call2_v0 : Ref sig .tc := ⟨.hbm, 31, rfl⟩
abbrev main_v17 : Ref sig .tc := ⟨.hbm, 32, rfl⟩
abbrev main_c_4 : Ref sig .tc := ⟨.hbm, 33, rfl⟩
abbrev main_call3_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  pads_S32000000_S32768000_07680000 : S32000000.Pads (![0] : Fin 1 → Nat) ![768000] ![0] S32768000
  h_S_ : 0 < S_.numel
  shapeCasts_S32768000_S256000x128 : S32768000.ShapeCasts S256000x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  shapeCasts_S256000x128_S32768000 : S256000x128.ShapeCasts S32768000
  slices_S32768000_S32000000_0 : S32768000.Slices ![0] S32000000
  bcast_S_S1000000 : S_.BroadcastsInDim S1000000 (![] : Fin 0 → Fin S1000000.rank)
  pads_S1000000_S1048576_0485760 : S1000000.Pads (![0] : Fin 1 → Nat) ![48576] ![0] S1048576
  shapeCasts_S1048576_S8192x128 : S1048576.ShapeCasts S8192x128
  inb_S1x1_S1x1_0_0 : ∀ a, (![0, 0] : Fin 2 → Nat) a + S1x1.size a ≤ S1x1.size a
  h_S1x1 : 0 < S1x1.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1x1_S1x1 : S1x1.ShapeCasts S1x1
  shapeCasts_S1024x128_S1x1024x128 : S1024x128.ShapeCasts S1x1024x128
  reduces_S1x1024x128_S1 : S1x1024x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S256000x128.size a
  hwx0_0 : ∀ i : grid0.Coords, EltTy.bits .f32 = 32 ∨ (Rect.block (s := S256000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S256000x128.size a
  hwx0_1 : ∀ i : grid0.Coords, EltTy.bits .f32 = 32 ∨ (Rect.block (s := S256000x128) S16000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S256000x128.size a
  hwx0_2 : ∀ i : grid0.Coords, EltTy.bits .f32 = 32 ∨ (Rect.block (s := S256000x128) S16000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

abbrev win0_0 : Pipeline.Window sig grid0 :=
  Pipeline.Window.ofSpec (Memref.whole main_v9) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000 : Shape := ⟨1, ![1000000]⟩
abbrev S32000000 : Shape := ⟨1, ![32000000]⟩
abbrev S_ : Shape := ⟨0, ![]⟩
abbrev S32000000x1 : Shape := ⟨2, ![32000000, 1]⟩

abbrev nBuf : Space → Nat
  | .hbm => 32
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S32000000, .i32⟩
  | .hbm, ⟨3, _⟩ => ⟨S32000000, .i32⟩
  | .hbm, ⟨4, _⟩ => ⟨S32000000, .f32⟩
  | .hbm, ⟨5, _⟩ => ⟨S1000000, .i32⟩
  | .hbm, ⟨6, _⟩ => ⟨S_, .i32⟩
  | .hbm, ⟨7, _⟩ => ⟨S32000000, .i32⟩
  | .hbm, ⟨8, _⟩ => ⟨S32000000, .i1⟩
  | .hbm, ⟨9, _⟩ => ⟨S_, .i32⟩
  | .hbm, ⟨10, _⟩ => ⟨S32000000, .i32⟩
  | .hbm, ⟨11, _⟩ => ⟨S32000000, .i32⟩
  | .hbm, ⟨12, _⟩ => ⟨S32000000, .i32⟩
  | .hbm, ⟨13, _⟩ => ⟨S32000000x1, .i32⟩
  | .hbm, ⟨14, _⟩ => ⟨S32000000, .f32⟩
  | .hbm, ⟨15, _⟩ => ⟨S32000000, .f32⟩
  | .hbm, ⟨16, _⟩ => ⟨S_, .f32⟩
  | .hbm, ⟨17, _⟩ => ⟨S1000000, .f32⟩
  | .hbm, ⟨18, _⟩ => ⟨S32000000x1, .i32⟩
  | .hbm, ⟨19, _⟩ => ⟨S1000000, .f32⟩
  | .hbm, ⟨20, _⟩ => ⟨S1000000, .f32⟩
  | .hbm, ⟨21, _⟩ => ⟨S1000000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v12 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000 : S_.BroadcastsInDim S1000000 (![] : Fin 0 → Fin S1000000.rank)
  reducesTo_S1000000_S_d0 : S1000000.ReducesTo [0] S_
  h_S_ : 0 < S_.numel
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

class Facts : Prop extends Facts₀ where

variable [Facts]
-- ==== Proof.KernelRun.lean ====
/-
  The idealized kernel's run with its result named.

  @main is thirteen segments: five stretches of host operations, the elementwise-product region, five more stretches,
  the sum-of-squares region, and the closing stretch (two square roots, the added constant, the quotient). The buffer
  contents at every segment boundary are a fold from the launch memory; the last boundary's contents `W13` are what every
  final state holds at every unscoped buffer. Read at the result buffer this gives the run's result; read at the
  argument buffers it gives the arguments as launched.
-/
import proofs.«134563_j63780264345905_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; every final state holds, at the result buffer,
    the last boundary's contents there, and at each argument buffer what it was launched with. -/
theorem run_main : θ_run defs (onTc (τ := τ) (main (F := F))) ⟨m, fun _ => 0, ρ⟩ (fun r => ∀ c : Dev nD,
      r.2.mem ((c.tc : Thread nD τ).loc main_v27) = W13 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v27 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Run

end
-- ==== Proof.SquaresBody.lean ====
/-
  What the sum-of-squares body leaves in its two one-entry accumulators, as values.

  At the first grid point the body stores the zero into each accumulator, reads it back, and stores the zero plus its
  block's sum; at every later point it reads what the point before left and stores that plus its block's sum. Each
  accumulator's contents after the body are therefore the payload of the body's last store into it, applied to the
  point's two input blocks and to what the accumulator held when that store's operand was loaded.
-/
import proofs.«134563_j63780264345905_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.SquaresBody

open Cert.KernelIdeal Cert.KernelIdeal.Gen

variable {F : FTy → Type} [FloatOps F]

theorem hz : (![0, 0] : Fin 2 → Nat) = fun _ => 0 := funext fun a => by fin_cases a <;> rfl

/-- A later point: the residual accumulator holding `xo2` is left at `xo2` plus the sum of the squared differences of
    the point's two blocks. -/
theorem res_step (c : Dev nD) (i : grid1.Coords) (a1 : Memref sig .tc .vmem S1024x128 .f32) (h1 : a1.IsWhole) (a2 : Memref sig .tc .vmem S1024x128 .f32) (h2 : a2.IsWhole) (a3 : Memref sig .tc .vmem S1x1 .f32) (h3 : a3.IsWhole) (a4 : Memref sig .tc .vmem S1x1 .f32) (h4 : a4.IsWhole) (hc : ¬cond1_0 i) (x0 x1 : Vec F S1024x128 .f32) (xo2 xo3 : Vec F S1x1 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, View.ld_unit_zero (S := S1024x128) hz, View.ld_unit_zero (S := S1x1) hz]

/-- A later point: the target accumulator holding `xo3` is left at `xo3` plus the sum of the squares of the point's first block. -/
theorem tgt_step (c : Dev nD) (i : grid1.Coords) (a1 : Memref sig .tc .vmem S1024x128 .f32) (h1 : a1.IsWhole) (a2 : Memref sig .tc .vmem S1024x128 .f32) (h2 : a2.IsWhole) (a3 : Memref sig .tc .vmem S1x1 .f32) (h3 : a3.IsWhole) (a4 : Memref sig .tc .vmem S1x1 .f32) (h4 : a4.IsWhole) (hc : ¬cond1_0 i) (x0 x1 : Vec F S1024x128 .f32) (xo2 xo3 : Vec F S1x1 .f32) :
    out1_B_3 c i a1 h1 a2 h2 a3 h3 a4 h4 hc x0 x1 xo2 xo3 = k1_pay5 x0 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h4.read_unread, View.ld_unit_zero (S := S1024x128) hz, View.ld_unit_zero (S := S1x1) hz]

/-- The first point: the residual accumulator is left at the stored zero plus the sum of the squared differences. -/
theorem res_first (c : Dev nD) (i : grid1.Coords) (a1 : Memref sig .tc .vmem S1024x128 .f32) (h1 : a1.IsWhole) (a2 : Memref sig .tc .vmem S1024x128 .f32) (h2 : a2.IsWhole) (a3 : Memref sig .tc .vmem S1x1 .f32) (h3 : a3.IsWhole) (a4 : Memref sig .tc .vmem S1x1 .f32) (h4 : a4.IsWhole) (hc : cond1_0 i) (x0 x1 : Vec F S1024x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, View.ld_unit_zero (S := S1024x128) hz]

/-- The first point: the target accumulator is left at the stored zero plus the sum of the squares of the first block. -/
theorem tgt_first (c : Dev nD) (i : grid1.Coords) (a1 : Memref sig .tc .vmem S1024x128 .f32) (h1 : a1.IsWhole) (a2 : Memref sig .tc .vmem S1024x128 .f32) (h2 : a2.IsWhole) (a3 : Memref sig .tc .vmem S1x1 .f32) (h3 : a3.IsWhole) (a4 : Memref sig .tc .vmem S1x1 .f32) (h4 : a4.IsWhole) (hc : cond1_0 i) (x0 x1 : Vec F S1024x128 .f32) :
    out1_A_3 c i a1 h1 a2 h2 a3 h3 a4 h4 hc x0 x1 = k1_pay5 x0 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S1024x128) hz]

end Cert.KernelIdeal.SquaresBody

end
-- ==== Proof.SquaresRegion.lean ====
/-
  The sum-of-squares region's two result arrays, as the accumulators' contents after the last grid point.

  Both output windows sit on the one block of their one-entry arrays at every point and are written back after the last
  point only; that block is the whole array. So each array ends holding what the body left in its accumulator at the
  last of the eight points.
-/
import proofs.«134563_j63780264345905_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.SquaresRegion

open Cert.KernelIdeal Cert.KernelIdeal.Gen

variable {F : FTy → Type} [FloatOps F]
variable (V : (c : Dev nD) → (b : Ref sig .tc) → Buf (Elt F) ((c : Thread nD τ).loc b))

/-- The grid has eight points; the last is point 7. -/
theorem lastPoint : (7 : ℕ) < cfg1.N := by rw [show cfg1.N = 8 from N_1]; decide

/-- The one write-back of the residual accumulator, after point 7, writes what the body left there: block (0, 0) of the
    one-entry array read through zero offsets is the array. -/
theorem res_flushed (c : Dev nD) (t : Fin cfg1.N) (hf : (cfg1.win 2).flush t = true) :
    (dat1 V c).flushed 2 t = ((cfg1.win 2).blk t).view.read (Elt F) ((outsAt1 V c 7 lastPoint).1 : Buf (Elt F) ((c : Thread nD τ).loc main_v21_0)) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2]
  have hz' : (fun a => win1_2.index t1_7 a * main_v21_0.ty.shape.size a) = fun _ => 0 := funext fun a => by fin_cases a <;> decide
  exact (Memref.read_access_unit_zero (Elt F) main_v21_0 hz' (fun a => by rw [congrFun hz' a]; simp) _).symm

theorem tgt_flushed (c : Dev nD) (t : Fin cfg1.N) (hf : (cfg1.win 3).flush t = true) :
    (dat1 V c).flushed 3 t = ((cfg1.win 3).blk t).view.read (Elt F) ((outsAt1 V c 7 lastPoint).2 : Buf (Elt F) ((c : Thread nD τ).loc main_v21_1)) := by
  have hN : cfg1.N = 8 := N_1
  have h7 : t.val = 7 := by have := (flush1_3 t).mp hf; have := t.isLt; omega
  obtain rfl : t = t1_7 := Fin.ext h7
  show (cfg1.win 3).cut (grid1.coords t1_7) ((dat1 V c).after 3 t1_7) = _
  rw [after1_3]
  have hz' : (fun a => win1_3.index t1_7 a * main_v21_1.ty.shape.size a) = fun _ => 0 := funext fun a => by fin_cases a <;> decide
  exact (Memref.read_access_unit_zero (Elt F) main_v21_1 hz' (fun a => by rw [congrFun hz' a]; simp) _).symm

/-- So the residual array ends holding the accumulator's contents after point 7 … -/
theorem res_final (c : Dev nD) : (dat1 V c).arrAt 2 cfg1.N = (outsAt1 V c 7 lastPoint).1 :=
  (dat1 V c).arrAt_eq_of_cover 2 _ (res_flushed V c) fun i =>
    ⟨t1_7, (flush1_2 t1_7).mpr rfl, by
      show i ∈ ((View.whole main_v21_0).slice (win1_2.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 1 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 1 from by decide +kernel]; omega⟩

/-- … and the target array likewise. -/
theorem tgt_final (c : Dev nD) : (dat1 V c).arrAt 3 cfg1.N = (outsAt1 V c 7 lastPoint).2 :=
  (dat1 V c).arrAt_eq_of_cover 3 _ (tgt_flushed V c) fun i =>
    ⟨t1_7, (flush1_3 t1_7).mpr rfl, by
      show i ∈ ((View.whole main_v21_1).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega⟩

end Cert.KernelIdeal.SquaresRegion

end
-- ==== Proof.LibIdxSums.lean ====
/-
  A sum over the index set of a rank-3 or rank-4 array is the iterated sum over its coordinates, first axis outermost
  (the rank-2 form is the library's `ValueIdx.sum_idx2`). Any commutative additive monoid.
-/
import Idealize.ShloMosaic.Lib.ValueIdx

namespace Cert.LibIdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdxSums
-- ==== Proof.SquaresSums.lean ====
/-
  The sum-of-squares region at the ideal values: its accumulators as finite sums.

  One entry of the body's residual payload is what the accumulator held plus the sum, over the 1024 × 128 entries of
  the point's blocks, of the squared difference of the two blocks; the target payload likewise with the squares of the
  first block. Starting from the stored zero, after point n each accumulator is the sum of the first n + 1 points' block
  sums, so after the last point it is the sum over all eight points.
-/
import proofs.«134563_j63780264345905_2_alg».proof.Proof.SquaresBody
import proofs.«134563_j63780264345905_2_alg».proof.Proof.SquaresRegion
import proofs.«134563_j63780264345905_2_alg».proof.Proof.LibIdxSums
import Idealize.ShloMosaic.PureOps.Ideal.Laws
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.SquaresSums

open Cert.KernelIdeal Cert.KernelIdeal.Gen

/-- The sum of the squared differences of two blocks. -/
def resSum (x0 x1 : Vec Ideal S1024x128 .f32) : EReal :=
  ∑ r : Fin 1024, ∑ q : Fin 128, (x0 (ix2 r q) - x1 (ix2 r q)) * (x0 (ix2 r q) - x1 (ix2 r q))

/-- The sum of the squares of a block. -/
def tgtSum (x0 : Vec Ideal S1024x128 .f32) : EReal :=
  ∑ r : Fin 1024, ∑ q : Fin 128, x0 (ix2 r q) * x0 (ix2 r q)

/-- The lane reduction over both axes of a block lifted to [1, 1024, 128] is the double sum over its entries. -/
theorem total_block (v : FVec Ideal S1024x128 .f32) (y : S1.Idx) :
    multiReduction .add [1, 2] S1 (shapeCast S1x1024x128 v shapeCasts_S1024x128_S1x1024x128) 0x00000000#32
      reduces_S1x1024x128_S1 (.inl rfl) rfl y = ∑ r : Fin 1024, ∑ q : Fin 128, v (ix2 r q) := by
  refine (Ideal.multiReduction_add_total _ 0x00000000#32 reduces_S1x1024x128_S1 (fun b => by fin_cases b; rfl) (.inl rfl) rfl y).trans ?_
  rw [Cert.LibIdxSums.sum_idx3, Fin.sum_univ_one]
  refine Finset.sum_congr rfl fun r _ => Finset.sum_congr rfl fun q _ => ?_
  exact shapeCast_ab_1ab_apply v _ 0 r q

/-- An accumulator plus a splat, at its entry. -/
theorem add_splat (xo : Vec Ideal S1x1 .f32) (e : Ideal .f32) (y : S1x1.Idx) : addf xo (broadcast S1x1 e) y = xo y + e := rfl

/-- The one entry extracted from a one-entry vector lifted to [1, 1, 1] is that vector's value. -/
theorem extract_const (v : FVec Ideal S1 .f32) (e : EReal) (hv : ∀ y, v y = e) :
    extractAt ![0, 0, 0] (shapeCast S1x1x1 v shapeCasts_S1_S1x1x1) inpos_S1x1x1_p0_0_0 = e := hv _

theorem pay4_apply (x0 x1 : Vec Ideal S1024x128 .f32) (xo : Vec Ideal S1x1 .f32) (y : S1x1.Idx) :
    k1_pay4 x0 x1 xo y = xo y + resSum x0 x1 := by
  unfold k1_pay4 k1_pay3
  simp only [shapeCast_self]
  rw [add_splat, extract_const _ _ (total_block (mulf (subf x0 x1) (subf x0 x1)))]
  simp only [resSum, mulf, subf, Ideal.mulf_def, Ideal.subf_def]

theorem pay5_apply (x0 : Vec Ideal S1024x128 .f32) (xo : Vec Ideal S1x1 .f32) (y : S1x1.Idx) :
    k1_pay5 x0 xo y = xo y + tgtSum x0 := by
  unfold k1_pay5 k1_pay3
  simp only [shapeCast_self]
  rw [add_splat, extract_const _ _ (total_block (mulf x0 x0))]
  simp only [tgtSum, mulf, Ideal.mulf_def]

/-- The zero the first point stores. -/
theorem zero_res (y : S1x1.Idx) : (k1_pay1 (F := Ideal)) y = 0 := Ideal.ofBits_zero_f32
theorem zero_tgt (y : S1x1.Idx) : (k1_pay2 (F := Ideal)) y = 0 := Ideal.ofBits_zero_f32

variable (V : (c : Dev nD) → (b : Ref sig .tc) → Buf (Elt Ideal) ((c : Thread nD τ).loc b))

/-- Point `s`'s sum of squared differences (zero past the grid). -/
def resAt (c : Dev nD) (s : ℕ) : EReal := if h : s < cfg1.N then resSum (iblk1 V c 0 ⟨s, h⟩) (iblk1 V c 1 ⟨s, h⟩) else 0
/-- Point `s`'s sum of squares of the target block (zero past the grid). -/
def tgtAt (c : Dev nD) (s : ℕ) : EReal := if h : s < cfg1.N then tgtSum (iblk1 V c 0 ⟨s, h⟩) else 0

/-- After point `n` each accumulator is the sum of the first `n + 1` points' block sums: by induction on the point. -/
theorem accs_eq (c : Dev nD) (y : S1x1.Idx) : ∀ (n : ℕ) (h : n < cfg1.N),
    (outsAt1 V c n h).1 y = ∑ s ∈ Finset.range (n + 1), resAt V c s
      ∧ (outsAt1 V c n h).2 y = ∑ s ∈ Finset.range (n + 1), tgtAt V c s
  | 0, h => by
    rw [outsAt1_A V c ⟨0, h⟩ rfl, SquaresBody.res_first, SquaresBody.tgt_first]
    dsimp only
    rw [pay4_apply, pay5_apply, zero_res, zero_tgt]
    simp only [zero_add, Finset.sum_range_one]
    rw [resAt, tgtAt, dif_pos h, dif_pos h]
    exact ⟨rfl, rfl⟩
  | n + 1, h => by
    have hN : cfg1.N = 8 := N_1
    have hB : ¬(⟨n + 1, h⟩ : Fin cfg1.N).val % 8 = 0 := by dsimp only; omega
    obtain ⟨ih1, ih2⟩ := accs_eq c y n (Nat.lt_of_succ_lt h)
    rw [outsAt1_B V c ⟨n + 1, h⟩ hB, SquaresBody.res_step, SquaresBody.tgt_step]
    dsimp only
    rw [pay4_apply, pay5_apply]
    simp only [Nat.add_sub_cancel]
    rw [ih1, ih2, Finset.sum_range_succ _ (n + 1), Finset.sum_range_succ (tgtAt V c) (n + 1)]
    refine ⟨?_, ?_⟩
    · congr 1
      rw [resAt, dif_pos h]
    · congr 1
      rw [tgtAt, dif_pos h]

/-- So the two result arrays end at the sums over all eight points. -/
theorem res_total (c : Dev nD) (y : S1x1.Idx) :
    ((dat1 V c).arrAt 2 cfg1.N : Vec Ideal S1x1 .f32) y = ∑ s ∈ Finset.range 8, resAt V c s := by
  rw [SquaresRegion.res_final V c]
  exact (accs_eq V c y 7 SquaresRegion.lastPoint).1

theorem tgt_total (c : Dev nD) (y : S1x1.Idx) :
    ((dat1 V c).arrAt 3 cfg1.N : Vec Ideal S1x1 .f32) y = ∑ s ∈ Finset.range 8, tgtAt V c s := by
  rw [SquaresRegion.tgt_final V c]
  exact (accs_eq V c y 7 SquaresRegion.lastPoint).2

end Cert.KernelIdeal.SquaresSums

end
-- ==== Proof.SquaresBlocks.lean ====
/- The second region's two input windows, read entry by entry: at grid point t each window holds rows
   1024·t … 1024·t + 1023 of its array (all 128 columns), so entry (r, q) of the block is entry (1024·t + r, q) of the
   array as the region found it. Stated at any float interpretation and at any contents of the core's buffers on entry. -/
import proofs.«134563_j63780264345905_2_alg».proof.Proof.Gen.KernelIdeal.Frame
import Idealize.ShloMosaic.Lib.Pipeline.Value
import Idealize.ShloMosaic.Lib.ValueIdx

noncomputable section

namespace Cert.KernelIdeal.SquaresBlocks

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- Row r of row block t (eight blocks of 1024 rows) is a row of the 8192-row array. -/
theorem row_lt {t r : ℕ} (ht : t < 8) (hr : r < 1024) : 1024 * t + r < 8192 := by omega

/-- At grid point t each of the two input windows is on row block t, column block 0. -/
theorem input_block_indices : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Entry (r, q) of the first input window's block at point t is entry (1024·t + r, q) of its array. -/
theorem tgt_block (c : Dev nD) (t : Fin cfg1.N) (r : Fin 1024) (q : Fin 128) :
    (iblk1 V c 0 t : Vec F S1024x128 .f32) (ix2 r q)
      = (V c main_v19 : FVec F S8192x128 .f32) (ix2 ⟨1024 * t.val + r.val, row_lt (lt_of_lt_of_eq t.isLt N_1) r.isLt⟩ q) := by
  obtain ⟨e0, e1, -, -⟩ := input_block_indices t
  unfold iblk1
  rw [View.read_apply]
  show V c main_v19 _ = V c main_v19 _
  congr 1
  funext a
  apply Fin.ext
  match a with
  | ⟨0, _⟩ => show win1_0.index t (0 : Fin 2) * 1024 + 1 * r.val = 1024 * t.val + r.val; rw [e0]; omega
  | ⟨1, _⟩ => show win1_0.index t (1 : Fin 2) * 128 + 1 * q.val = q.val; rw [e1]; omega

/-- Entry (r, q) of the second input window's block at point t is entry (1024·t + r, q) of its array. -/
theorem ax_block (c : Dev nD) (t : Fin cfg1.N) (r : Fin 1024) (q : Fin 128) :
    (iblk1 V c 1 t : Vec F S1024x128 .f32) (ix2 r q)
      = (V c main_v20 : FVec F S8192x128 .f32) (ix2 ⟨1024 * t.val + r.val, row_lt (lt_of_lt_of_eq t.isLt N_1) r.isLt⟩ q) := by
  obtain ⟨-, -, e0, e1⟩ := input_block_indices t
  unfold iblk1
  rw [View.read_apply]
  show V c main_v20 _ = V c main_v20 _
  congr 1
  funext a
  apply Fin.ext
  match a with
  | ⟨0, _⟩ => show win1_1.index t (0 : Fin 2) * 1024 + 1 * r.val = 1024 * t.val + r.val; rw [e0]; omega
  | ⟨1, _⟩ => show win1_1.index t (1 : Fin 2) * 128 + 1 * q.val = q.val; rw [e1]; omega

end Cert.KernelIdeal.SquaresBlocks

end
-- ==== Proof.Stretches.lean ====
/-
  The host operations around the two regions, read as whole-array terms.

  Before the product region: the gather of `preds` at the column numbers (negative ones wrapped by the table's length), and
  both factors padded with 768000 zeros and laid out as 256000 rows of 128. Between the regions: the product laid back
  out flat and cut to its first 32000000 entries, summed into the rows' segments, and both the target and that sum
  padded with 48576 zeros and laid out as 8192 rows of 128. After the second region: the two square roots, the added
  constant and the quotient. Each is the operations' composed term of the buffers the stretch starts from.
-/
import proofs.«134563_j63780264345905_2_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Stretches

open Cert.KernelIdeal Cert.KernelIdeal.Gen

variable {F : FTy → Type} [FloatOps F]

/-- The padding value: the integer zero converted. -/
abbrev padZero : FVec F S_ .f32 := sitofp .f32 (constantI S_ 32 0#32)

/-- A vector of 1000000 entries, padded with 48576 zeros, as 8192 rows of 128. -/
abbrev rows8192 (x : FVec F S1000000 .f32) : FVec F S8192x128 .f32 :=
  shapeCast S8192x128 (pad S1048576 ![0] ![48576] ![0] x (padZero (F := F)) pads_S1000000_S1048576_0485760 h_S_) shapeCasts_S1048576_S8192x128

/-- A vector of 32000000 entries, padded with 768000 zeros, as 256000 rows of 128. -/
abbrev rows256000 (x : FVec F S32000000 .f32) : FVec F S256000x128 .f32 :=
  shapeCast S256000x128 (pad S32768000 ![0] ![768000] ![0] x (padZero (F := F)) pads_S32000000_S32768000_07680000 h_S_) shapeCasts_S32768000_S256000x128

/-- 256000 rows of 128 laid out flat and cut to the first 32000000 entries. -/
abbrev unrows (y : FVec F S256000x128 .f32) : FVec F S32000000 .f32 :=
  extractStridedSlice S32000000 ![0] (shapeCast S32768000 y shapeCasts_S256000x128_S32768000) slices_S32768000_S32000000_0

/-- The column numbers as gather indices: a negative one has the table's length added. -/
abbrev wrapIdx (cols : IVec S32000000 32) : IVec S32000000x1 32 :=
  broadcastInDim S32000000x1 ![0] bcast_S32000000_S32000000x1_0
    (select (cmpi .slt cols (broadcastInDim S32000000 ![] bcast_S_S32000000 (constantI S_ 32 0#32)))
      (addi cols (broadcastInDim S32000000 ![] bcast_S_S32000000 (constantI S_ 32 1000000#32))) cols)

/-- The updates summed into the segments the row numbers name, from the zero vector. -/
abbrev segSum (rows : IVec S32000000 32) (u : FVec F S32000000 .f32) : FVec F S1000000 .f32 :=
  Host.scatterAdd scatter_S1000000_S32000000x1_S32000000_n_0_0_1
    (broadcastInDim S1000000 ![] bcast_S_S1000000 (constant S_ .f32 0x00000000#32))
    (broadcastInDim S32000000x1 ![0] bcast_S32000000_S32000000x1_0 rows) u

/-- The closing stretch: the quotient of the first result's root by the second's plus the constant. -/
theorem closing (W : Valuation τ sig (Elt F)) :
    StableHlo.after (hostOps2 (F := F)) W (Proc.devRef .tc main_v27)
      = Host.divf (Host.sqrt (shapeCast S_ (W (Proc.devRef .tc main_v21_0) : FVec F S1x1 .f32) shapeCasts_S1x1_S_))
          (addf (Host.sqrt (shapeCast S_ (W (Proc.devRef .tc main_v21_1) : FVec F S1x1 .f32) shapeCasts_S1x1_S_)) (constant S_ .f32 0x2B8CBCCC#32)) := by
  dsimp only [hostOps2]
  after_results
  rfl

/-- The second region's first operand: the target, padded, as rows. -/
theorem entry1_tgt (W : Valuation τ sig (Elt F)) :
    StableHlo.after (hostOps1_4 (F := F)) (StableHlo.after hostOps1_3 (StableHlo.after hostOps1_2 (StableHlo.after hostOps1_1 (StableHlo.after hostOps1 W)))) (Proc.devRef .tc main_v19)
      = rows8192 (W (Proc.devRef .tc main_arg1) : FVec F S1000000 .f32) := by
  dsimp only [hostOps1, hostOps1_1, hostOps1_2, hostOps1_3, hostOps1_4]
  after_results
  rfl

/-- The second region's second operand: the first region's result laid out flat and cut, summed by segments, padded, as rows. -/
theorem entry1_ax (W : Valuation τ sig (Elt F)) :
    StableHlo.after (hostOps1_4 (F := F)) (StableHlo.after hostOps1_3 (StableHlo.after hostOps1_2 (StableHlo.after hostOps1_1 (StableHlo.after hostOps1 W)))) (Proc.devRef .tc main_v20)
      = rows8192 (segSum (W (Proc.devRef .tc main_arg2) : IVec S32000000 32) (unrows (W (Proc.devRef .tc main_v11) : FVec F S256000x128 .f32))) := by
  dsimp only [hostOps1, hostOps1_1, hostOps1_2, hostOps1_3, hostOps1_4]
  after_results
  rfl

/-- The first region's first operand: the values, padded, as rows. -/
theorem entry0_vals (W : Valuation τ sig (Elt F)) :
    StableHlo.after (hostOps0_4 (F := F)) (StableHlo.after hostOps0_3 (StableHlo.after hostOps0_2 (StableHlo.after hostOps0_1 (StableHlo.after hostOps0 W)))) (Proc.devRef .tc main_v9)
      = rows256000 (W (Proc.devRef .tc main_arg4) : FVec F S32000000 .f32) := by
  dsimp only [hostOps0, hostOps0_1, hostOps0_2, hostOps0_3, hostOps0_4]
  after_results
  rfl

/-- The first region's second operand: the gathered predictions, padded, as rows. -/
theorem entry0_gathered (W : Valuation τ sig (Elt F)) :
    StableHlo.after (hostOps0_4 (F := F)) (StableHlo.after hostOps0_3 (StableHlo.after hostOps0_2 (StableHlo.after hostOps0_1 (StableHlo.after hostOps0 W)))) (Proc.devRef .tc main_v10)
      = rows256000 (Host.gather gather_S1000000_S32000000x1_S32000000_n_0_n_n_0_1_1 (W (Proc.devRef .tc main_arg0) : FVec F S1000000 .f32)
          (wrapIdx (W (Proc.devRef .tc main_arg3) : IVec S32000000 32))) := by
  dsimp only [hostOps0, hostOps0_1, hostOps0_2, hostOps0_3, hostOps0_4]
  after_results
  rfl

/-- The stretch before the first region writes neither the target nor the row numbers. -/
theorem entry0_arg1 (W : Valuation τ sig (Elt F)) :
    StableHlo.after (hostOps0_4 (F := F)) (StableHlo.after hostOps0_3 (StableHlo.after hostOps0_2 (StableHlo.after hostOps0_1 (StableHlo.after hostOps0 W)))) (Proc.devRef .tc main_arg1) = W (Proc.devRef .tc main_arg1) := by
  dsimp only [hostOps0, hostOps0_1, hostOps0_2, hostOps0_3, hostOps0_4]
  after_results

theorem entry0_arg2 (W : Valuation τ sig (Elt F)) :
    StableHlo.after (hostOps0_4 (F := F)) (StableHlo.after hostOps0_3 (StableHlo.after hostOps0_2 (StableHlo.after hostOps0_1 (StableHlo.after hostOps0 W)))) (Proc.devRef .tc main_arg2) = W (Proc.devRef .tc main_arg2) := by
  dsimp only [hostOps0, hostOps0_1, hostOps0_2, hostOps0_3, hostOps0_4]
  after_results

end Cert.KernelIdeal.Stretches

end
-- ==== Proof.LibPadStack.lean ====
/-
  General readings of two host layout operations at an index given by its coordinates, any element type, any sizes.

  A `stablehlo.pad` that appends entries at the HIGH end only (low padding 0, no interior padding), of a rank-2 or a rank-1
  array: inside the operand's extents it reads the operand at the same coordinates (`pad2_inside`, `pad1_inside`); at a row
  or a column (or, in rank 1, a position) at or past the operand's extent it reads the padding value (`pad2_outside_row`,
  `pad2_outside_col`, `pad1_outside`).
  A `stablehlo.concatenate` of two pieces along axis 0 — two row blocks [A₁, B] over [A₂, B], or two vectors [A₁], [A₂]:
  below the first piece's extent it reads the first piece (`concat2_rows_left`, `concat1_left`), from there on the second
  piece with the coordinate counted from the first piece's extent (`concat2_rows_right`, `concat1_right`).
-/
import Idealize.ShloMosaic.Lib.ValueIdx
import Idealize.ShloMosaic.Lib.Pipeline.Value
import Idealize.ShloMosaic.Lib.KernelVsHost

namespace Cert.LibPadStack

open Idealize.ShloMosaic Idealize.ShloMosaic.ValueIdx

section Readings
variable {α : Type}

/-- A rank-2 array padded at the high ends only reads the operand at every index inside the operand's extents. -/
theorem pad2_inside {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hr : r.val < A) (hk : k.val < B) :
    pad ⟨2, ![A', B']⟩ (![0, 0] : Fin 2 → ℕ) hi ![0, 0] x v h hu (ix2 r k) = x (ix2 ⟨r.val, hr⟩ ⟨k.val, hk⟩) :=
  pad_apply_of_inside _ _ _ x v h hu (ix2 r k) (ix2 ⟨r.val, hr⟩ ⟨k.val, hk⟩) fun a => by
    match a with
    | ⟨0, _⟩ => show r.val = 0 + r.val * (0 + 1); omega
    | ⟨1, _⟩ => show k.val = 0 + k.val * (0 + 1); omega

/-- … and the padding value at every index whose row is past the operand's rows … -/
theorem pad2_outside_row {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hr : A ≤ r.val) :
    pad ⟨2, ![A', B']⟩ (![0, 0] : Fin 2 → ℕ) hi ![0, 0] x v h hu (ix2 r k) = v (Shape.Idx.first hu) :=
  pad_apply_of_not_inside _ _ _ x v h hu (ix2 r k) ⟨0, Nat.zero_lt_two⟩ (by
    show ¬(0 ≤ r.val ∧ (r.val - 0) % (0 + 1) = 0 ∧ (r.val - 0) / (0 + 1) < A)
    omega)

/-- … or whose column is past the operand's columns. -/
theorem pad2_outside_col {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hk : B ≤ k.val) :
    pad ⟨2, ![A', B']⟩ (![0, 0] : Fin 2 → ℕ) hi ![0, 0] x v h hu (ix2 r k) = v (Shape.Idx.first hu) :=
  pad_apply_of_not_inside _ _ _ x v h hu (ix2 r k) ⟨1, Nat.one_lt_two⟩ (by
    show ¬(0 ≤ k.val ∧ (k.val - 0) % (0 + 1) = 0 ∧ (k.val - 0) / (0 + 1) < B)
    omega)

/-- A rank-1 array padded at the high end only reads the operand below the operand's extent … -/
theorem pad1_inside {A A' : ℕ} (hi : Fin 1 → ℕ) (x : (⟨1, ![A]⟩ : Shape).Idx → α) {u : Shape} (v : u.Idx → α)
    (h : (⟨1, ![A]⟩ : Shape).Pads (![0] : Fin 1 → ℕ) hi ![0] ⟨1, ![A']⟩) (hu : 0 < u.numel)
    (o : Fin A') (ho : o.val < A) :
    pad ⟨1, ![A']⟩ (![0] : Fin 1 → ℕ) hi ![0] x v h hu (ix1 o) = x (ix1 ⟨o.val, ho⟩) :=
  pad_apply_of_inside _ _ _ x v h hu (ix1 o) (ix1 ⟨o.val, ho⟩) fun a => by
    match a with
    | ⟨0, _⟩ => show o.val = 0 + o.val * (0 + 1); omega

/-- … and the padding value from there on. -/
theorem pad1_outside {A A' : ℕ} (hi : Fin 1 → ℕ) (x : (⟨1, ![A]⟩ : Shape).Idx → α) {u : Shape} (v : u.Idx → α)
    (h : (⟨1, ![A]⟩ : Shape).Pads (![0] : Fin 1 → ℕ) hi ![0] ⟨1, ![A']⟩) (hu : 0 < u.numel)
    (o : Fin A') (ho : A ≤ o.val) :
    pad ⟨1, ![A']⟩ (![0] : Fin 1 → ℕ) hi ![0] x v h hu (ix1 o) = v (Shape.Idx.first hu) :=
  pad_apply_of_not_inside _ _ _ x v h hu (ix1 o) ⟨0, Nat.one_pos⟩ (by
    show ¬(0 ≤ o.val ∧ (o.val - 0) % (0 + 1) = 0 ∧ (o.val - 0) / (0 + 1) < A)
    omega)

/-- Two rank-2 arrays stacked along the rows read the first at a row below its extent … -/
theorem concat2_rows_left {A₁ A₂ A B : ℕ} (x₁ : (⟨2, ![A₁, B]⟩ : Shape).Idx → α) (x₂ : (⟨2, ![A₂, B]⟩ : Shape).Idx → α)
    (h : Shape.Concatenates [(⟨2, ![A₁, B]⟩ : Shape), ⟨2, ![A₂, B]⟩] ⟨2, ![A, B]⟩ ⟨0, Nat.zero_lt_two⟩)
    (o : Fin A) (k : Fin B) (ho : o.val < A₁) :
    concatenate ⟨2, ![A, B]⟩ ⟨0, Nat.zero_lt_two⟩ [⟨⟨2, ![A₁, B]⟩, x₁⟩, ⟨⟨2, ![A₂, B]⟩, x₂⟩] h (ix2 o k) = x₁ (ix2 ⟨o.val, ho⟩ k) :=
  concatenate_pair_apply_left _ x₁ x₂ h (ix2 o k) rfl (ix2 ⟨o.val, ho⟩ k) fun b => by
    match b with
    | ⟨0, _⟩ => rfl
    | ⟨1, _⟩ => rfl

/-- … and the second, its row counted from the first's extent, at a row from there on. -/
theorem concat2_rows_right {A₁ A₂ A B : ℕ} (x₁ : (⟨2, ![A₁, B]⟩ : Shape).Idx → α) (x₂ : (⟨2, ![A₂, B]⟩ : Shape).Idx → α)
    (h : Shape.Concatenates [(⟨2, ![A₁, B]⟩ : Shape), ⟨2, ![A₂, B]⟩] ⟨2, ![A, B]⟩ ⟨0, Nat.zero_lt_two⟩)
    (o : Fin A) (k : Fin B) (ho : A₁ ≤ o.val) (ho' : o.val - A₁ < A₂) :
    concatenate ⟨2, ![A, B]⟩ ⟨0, Nat.zero_lt_two⟩ [⟨⟨2, ![A₁, B]⟩, x₁⟩, ⟨⟨2, ![A₂, B]⟩, x₂⟩] h (ix2 o k) = x₂ (ix2 ⟨o.val - A₁, ho'⟩ k) :=
  concatenate_pair_apply_right _ x₁ x₂ h (ix2 o k) rfl rfl (ix2 ⟨o.val - A₁, ho'⟩ k)
    (fun b hb => by
      match b, hb with
      | ⟨0, _⟩, hb => exact absurd rfl hb
      | ⟨1, _⟩, _ => rfl)
    (by show (o.val - A₁) + A₁ = o.val; omega)

/-- Two vectors joined read the first below its extent … -/
theorem concat1_left {A₁ A₂ A : ℕ} (x₁ : (⟨1, ![A₁]⟩ : Shape).Idx → α) (x₂ : (⟨1, ![A₂]⟩ : Shape).Idx → α)
    (h : Shape.Concatenates [(⟨1, ![A₁]⟩ : Shape), ⟨1, ![A₂]⟩] ⟨1, ![A]⟩ ⟨0, Nat.one_pos⟩)
    (o : Fin A) (ho : o.val < A₁) :
    concatenate ⟨1, ![A]⟩ ⟨0, Nat.one_pos⟩ [⟨⟨1, ![A₁]⟩, x₁⟩, ⟨⟨1, ![A₂]⟩, x₂⟩] h (ix1 o) = x₁ (ix1 ⟨o.val, ho⟩) :=
  concatenate_pair_apply_left _ x₁ x₂ h (ix1 o) rfl (ix1 ⟨o.val, ho⟩) fun b => by
    match b with
    | ⟨0, _⟩ => rfl

/-- … and the second, counted from the first's extent, from there on. -/
theorem concat1_right {A₁ A₂ A : ℕ} (x₁ : (⟨1, ![A₁]⟩ : Shape).Idx → α) (x₂ : (⟨1, ![A₂]⟩ : Shape).Idx → α)
    (h : Shape.Concatenates [(⟨1, ![A₁]⟩ : Shape), ⟨1, ![A₂]⟩] ⟨1, ![A]⟩ ⟨0, Nat.one_pos⟩)
    (o : Fin A) (ho : A₁ ≤ o.val) (ho' : o.val - A₁ < A₂) :
    concatenate ⟨1, ![A]⟩ ⟨0, Nat.one_pos⟩ [⟨⟨1, ![A₁]⟩, x₁⟩, ⟨⟨1, ![A₂]⟩, x₂⟩] h (ix1 o) = x₂ (ix1 ⟨o.val - A₁, ho'⟩) :=
  concatenate_pair_apply_right _ x₁ x₂ h (ix1 o) rfl rfl (ix1 ⟨o.val - A₁, ho'⟩)
    (fun b hb => by
      match b, hb with
      | ⟨0, _⟩, hb => exact absurd rfl hb)
    (by show (o.val - A₁) + A₁ = o.val; omega)

end Readings

end Cert.LibPadStack
-- ==== Proof.Layouts.lean ====
/-
  The host layouts read at an index, and undone.

  Cutting a vector padded at its high end back to its length gives the vector; laying 256000 rows of 128 out flat undoes
  laying the flat vector out as rows, and commutes with an entrywise product. A vector of 1000000 entries padded to
  1048576 and laid out as 8192 rows of 128 reads, at row R and column q, the padded vector at position 128·R + q: the
  vector itself below 1000000, the padding value from there on.
-/
import proofs.«134563_j63780264345905_2_alg».proof.Proof.Stretches
import proofs.«134563_j63780264345905_2_alg».proof.Proof.LibPadStack
import Idealize.ShloMosaic.Lib.Pipeline.Value
import Idealize.ShloMosaic.Lib.ValueIdx
import Idealize.ShloMosaic.Lib.KernelVsHost

noncomputable section

open Idealize.ShloMosaic Idealize.ShloMosaic.TcCoe Idealize.SL.Sem Idealize.ShloMosaic.ValueIdx

namespace Cert.KernelIdeal.Layouts

open Cert.KernelIdeal Cert.KernelIdeal.Gen Cert.KernelIdeal.Stretches

variable {F : FTy → Type} [FloatOps F]

/-- Cutting a vector padded at its high end back to its own length gives the vector. -/
theorem slice_pad (x : FVec F S32000000 .f32) (v : FVec F S_ .f32) :
    extractStridedSlice S32000000 ![0] (pad S32768000 ![0] ![768000] ![0] x v pads_S32000000_S32768000_07680000 h_S_)
      slices_S32768000_S32000000_0 = x := by
  funext j
  obtain ⟨e, rfl⟩ : ∃ e : Fin 32000000, j = ix1 e := ⟨j 0, eq_ix1 j⟩
  have he : e.val < 32768000 := by have := e.isLt; omega
  refine (extractStridedSlice_apply _ _ _ (ix1 e) (ix1 ⟨e.val, he⟩) (fun a => ?_)).trans ?_
  · match a with
    | ⟨0, _⟩ => show e.val = 0 + e.val; omega
  · exact Cert.LibPadStack.pad1_inside ![768000] x v _ h_S_ ⟨e.val, he⟩ e.isLt

/-- The product of two padded row layouts, laid back out flat and cut, is the product of the two vectors. -/
theorem unrows_mulf_rows (a b : FVec F S32000000 .f32) : unrows (mulf (rows256000 a) (rows256000 b)) = mulf a b := by
  have e1 : ∀ (A B : FVec F S32768000 .f32),
      shapeCast S32768000 (mulf (shapeCast S256000x128 A shapeCasts_S32768000_S256000x128) (shapeCast S256000x128 B shapeCasts_S32768000_S256000x128))
        shapeCasts_S256000x128_S32768000 = mulf A B := fun A B => by
    have h : shapeCast S32768000 (mulf (shapeCast S256000x128 A shapeCasts_S32768000_S256000x128) (shapeCast S256000x128 B shapeCasts_S32768000_S256000x128))
        shapeCasts_S256000x128_S32768000
        = mulf (shapeCast S32768000 (shapeCast S256000x128 A shapeCasts_S32768000_S256000x128) shapeCasts_S256000x128_S32768000)
            (shapeCast S32768000 (shapeCast S256000x128 B shapeCasts_S32768000_S256000x128) shapeCasts_S256000x128_S32768000) := rfl
    rw [h, shapeCast_shapeCast, shapeCast_shapeCast]
  have e2 : ∀ (A B : FVec F S32768000 .f32),
      extractStridedSlice S32000000 ![0] (mulf A B) slices_S32768000_S32000000_0
        = mulf (extractStridedSlice S32000000 ![0] A slices_S32768000_S32000000_0) (extractStridedSlice S32000000 ![0] B slices_S32768000_S32000000_0) :=
    fun _ _ => rfl
  show extractStridedSlice S32000000 ![0] (shapeCast S32768000 (mulf (shapeCast S256000x128 _ _) (shapeCast S256000x128 _ _)) _) _ = _
  rw [e1, e2, slice_pad, slice_pad]

/-- A vector of 1000000 entries padded with zeros to 1048576, at a position. -/
def padded (x : FVec F S1000000 .f32) (k : Fin 1048576) : F .f32 :=
  pad S1048576 ![0] ![48576] ![0] x (padZero (F := F)) pads_S1000000_S1048576_0485760 h_S_ (ix1 k)

theorem flat_lt {R q : ℕ} (hR : R < 8192) (hq : q < 128) : R * 128 + q < 1048576 := by omega

/-- The padded vector as rows, at row R and column q, is the padded vector at position 128·R + q. -/
theorem rows8192_apply (x : FVec F S1000000 .f32) (R : Fin 8192) (q : Fin 128) :
    rows8192 x (ix2 R q) = padded x ⟨R.val * 128 + q.val, flat_lt R.isLt q.isLt⟩ := by
  unfold padded
  refine shapeCast_apply _ _ (ix2 R q) (ix1 ⟨R.val * 128 + q.val, flat_lt R.isLt q.isLt⟩) ?_
  rw [Shape.rowMajor_val_one, Shape.rowMajor_val_two]
  rfl

/-- Below the vector's length the padded vector is the vector … -/
theorem padded_inside (x : FVec F S1000000 .f32) (k : Fin 1048576) (hk : k.val < 1000000) : padded x k = x (ix1 ⟨k.val, hk⟩) :=
  Cert.LibPadStack.pad1_inside ![48576] x _ _ h_S_ k hk

/-- … and from there on it is the padding value, which at the ideal values is zero. -/
theorem padded_outside (x : FVec Ideal S1000000 .f32) (k : Fin 1048576) (hk : 1000000 ≤ k.val) : padded x k = 0 :=
  (Cert.LibPadStack.pad1_outside ![48576] x _ _ h_S_ k hk).trans (sitofp_zero (φ := .f32))

end Cert.KernelIdeal.Layouts

end
-- ==== Proof.ProductRegion.lean ====
/- The first region of the kernel program, read as a value: the grid's sixteen points each take rows
   16000·t … 16000·t + 15999 of the two input arrays, multiply them entry by entry and write the result to the same
   rows of the output array; the sixteen row blocks fill the 256000 rows, so after the region the output array is the
   entrywise product of the two input arrays as the region found them. Stated at any float interpretation and at any
   contents of the core's buffers on entry. -/
import proofs.«134563_j63780264345905_2_alg».proof.Proof.Gen.KernelIdeal.Frame
import Idealize.ShloMosaic.Lib.Pipeline.Value

noncomputable section

namespace Cert.KernelIdeal.ProductRegion

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one store and its two loads sit at offsets (0, 0): the zero offsets, however spelt. -/
theorem zero_offsets : (![0, 0] : Fin 2 → Nat) = fun _ => 0 := funext fun a => by fin_cases a <;> rfl

/-- At grid point t each of the three windows is on row block t, column block 0. -/
theorem row_block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What the body leaves in the output block is the entrywise product of the two input blocks (the two shape
    casts are between equal shapes). -/
theorem body_stores_product (x0 x1 : Vec F S16000x128 .f32) : out0_2 x0 x1 = mulf x0 x1 := by
  unfold out0_2
  rw [View.canon_unit_zero zero_offsets]
  simp only [View.ld_unit_zero (S := S16000x128) zero_offsets]
  unfold k0_pay1
  simp only [shapeCast_self]

/-- WHAT POINT t WRITES BACK is block t of the entrywise product of the two input arrays as the region finds them:
    each input block is read at the rows the output block covers. -/
theorem flushed_product_block (c : Dev nD) (t : Fin cfg0.N) :
    (dat0 V c).flushed 2 t
      = ((cfg0.win 2).blk t).view.read (Elt F)
          (mulf (V c main_v9 : FVec F S256000x128 .f32) (V c main_v10 : FVec F S256000x128 .f32) : FVec F S256000x128 .f32) := by
  show (cfg0.win 2).cut (grid0.coords t) ((dat0 V c).after 2 t) = _
  rw [after0_2]
  unfold out0_2
  rw [View.canon_unit_zero zero_offsets]
  simp only [View.ld_unit_zero (S := S16000x128) zero_offsets]
  unfold k0_pay1
  simp only [shapeCast_self]
  obtain ⟨e00, e01, e10, e11, e20, e21⟩ := row_block_indices t
  funext j
  show FloatOps.mulf (V c main_v9 (((cfg0.win 0).blk t).view.emb j)) (V c main_v10 (((cfg0.win 1).blk t).view.emb j))
      = FloatOps.mulf (V c main_v9 (((cfg0.win 2).blk t).view.emb j)) (V c main_v10 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 16000 + 1 * (j 0).val = win0_2.index t (0 : Fin 2) * 16000 + 1 * (j 0).val; rw [e00, e20]
    | ⟨1, _⟩ => show win0_0.index t (1 : Fin 2) * 128 + 1 * (j 1).val = win0_2.index t (1 : Fin 2) * 128 + 1 * (j 1).val; rw [e01, e21]
  have h1 : ((cfg0.win 1).blk t).view.emb j = ((cfg0.win 2).blk t).view.emb j := by
    funext a; apply Fin.ext
    match a with
    | ⟨0, _⟩ => show win0_1.index t (0 : Fin 2) * 16000 + 1 * (j 0).val = win0_2.index t (0 : Fin 2) * 16000 + 1 * (j 0).val; rw [e10, e20]
    | ⟨1, _⟩ => show win0_1.index t (1 : Fin 2) * 128 + 1 * (j 1).val = win0_2.index t (1 : Fin 2) * 128 + 1 * (j 1).val; rw [e11, e21]
  rw [h0, h1]

/-- An entry of the output array is in point t's block iff, on each axis, its coordinate is in the block's range. -/
theorem mem_output_block (t : Fin cfg0.N) (i : S256000x128.Idx) :
    i ∈ ((cfg0.win 2).blk t).view.set ↔ ∀ a : Fin 2, win0_2.index t a * S16000x128.size a ≤ (i a).val ∧ (i a).val < win0_2.index t a * S16000x128.size a + S16000x128.size a := by
  show i ∈ ((View.whole main_v11).slice (win0_2.rect t)).set ↔ _
  rw [View.set_slice_whole, Rect.mem_set_unit]
  exact Iff.rfl

/-- The sixteen row blocks fill the array: row r is in the block of point r / 16000, which writes back. -/
theorem output_blocks_cover (i : S256000x128.Idx) :
    ∃ t : Fin cfg0.N, (cfg0.win 2).flush t = true ∧ i ∈ ((cfg0.win 2).blk t).view.set := by
  have hi0 : (i 0).val < 256000 := (i 0).isLt
  have hi1 : (i 1).val < 128 := (i 1).isLt
  have hN : cfg0.N = 16 := N_0
  obtain ⟨t, ht⟩ : ∃ t : Fin cfg0.N, t.val = (i 0).val / 16000 := ⟨⟨(i 0).val / 16000, by rw [hN]; omega⟩, rfl⟩
  obtain ⟨-, -, -, -, e20, e21⟩ := row_block_indices t
  refine ⟨t, flush0_2 t, ?_⟩
  rw [mem_output_block]
  intro a
  match a with
  | ⟨0, _⟩ => show win0_2.index t (0 : Fin 2) * 16000 ≤ (i 0).val ∧ (i 0).val < win0_2.index t (0 : Fin 2) * 16000 + 16000; rw [e20, ht]; omega
  | ⟨1, _⟩ => show win0_2.index t (1 : Fin 2) * 128 ≤ (i 1).val ∧ (i 1).val < win0_2.index t (1 : Fin 2) * 128 + 128; rw [e21]; omega

/-- AFTER THE REGION the output array is, entry by entry, the product of the two input arrays as the region found
    them. -/
theorem product_final (c : Dev nD) :
    (dat0 V c).arrAt 2 cfg0.N
      = (mulf (V c main_v9 : FVec F S256000x128 .f32) (V c main_v10 : FVec F S256000x128 .f32) : FVec F S256000x128 .f32) :=
  (dat0 V c).arrAt_eq_of_cover 2 _ (fun t _ => flushed_product_block V c t) output_blocks_cover

end Cert.KernelIdeal.ProductRegion

end
-- ==== Proof.KernelValue.lean ====
/-
  The idealized kernel's result buffer, read back through the run's boundaries.

  The result is the closing stretch's quotient of the two result arrays of the sum-of-squares region. That region's two
  operands are the target and the sparse product, each padded and laid out as rows; the sparse product is the segment sum
  of the product region's result laid out flat and cut, and that result is the entrywise product of the padded values and
  the padded gathered predictions — so, cut back, the product of the values and the gathered predictions themselves.
-/
import proofs.«134563_j63780264345905_2_alg».proof.Proof.Stretches
import proofs.«134563_j63780264345905_2_alg».proof.Proof.Layouts
import proofs.«134563_j63780264345905_2_alg».proof.Proof.ProductRegion

noncomputable section

open Idealize.ShloMosaic Idealize.ShloMosaic.TcCoe Idealize.SL.Sem Idealize.ShloMosaic.StableHlo

namespace Cert.KernelIdeal.KernelValue

open Cert.KernelIdeal Cert.KernelIdeal.Gen Cert.KernelIdeal.Stretches

variable {F : FTy → Type} [FloatOps F]
variable (m : (ℓ : Loc nD τ sig) → Buf (Elt F) ℓ) (ρ : Dev nD → PrngReg)

/-- The sparse product as the kernel's program computes it, of the launch contents. -/
abbrev spmv (c : Dev nD) : FVec F S1000000 .f32 :=
  segSum (m ((c : Thread nD τ).loc main_arg2))
    (mulf (m ((c : Thread nD τ).loc main_arg4))
      (Host.gather gather_S1000000_S32000000x1_S32000000_n_0_n_n_0_1_1 (m ((c : Thread nD τ).loc main_arg0))
        (wrapIdx (m ((c : Thread nD τ).loc main_arg3)))))

/-- The product region's result array: the padded values times the padded gathered predictions, as rows. -/
theorem product_out (c : Dev nD) :
    W6 m ρ c (Proc.devRef .tc main_v11)
      = mulf (rows256000 (m ((c : Thread nD τ).loc main_arg4)))
          (rows256000 (Host.gather gather_S1000000_S32000000x1_S32000000_n_0_n_n_0_1_1 (m ((c : Thread nD τ).loc main_arg0))
            (wrapIdx (m ((c : Thread nD τ).loc main_arg3))))) :=
  (W6_arr m ρ c 2).trans ((ProductRegion.product_final (V5 m ρ) c).trans
    (congrArg₂ mulf (entry0_vals (W0 m ρ c)) (entry0_gathered (W0 m ρ c))))

/-- The product region leaves the target and the row numbers as launched. -/
theorem kept_tgt (c : Dev nD) : W6 m ρ c (Proc.devRef .tc main_arg1) = m ((c : Thread nD τ).loc main_arg1) :=
  (W6_of_ne m ρ c main_arg1 (by decide)).trans (entry0_arg1 (W0 m ρ c))
theorem kept_rows (c : Dev nD) : W6 m ρ c (Proc.devRef .tc main_arg2) = m ((c : Thread nD τ).loc main_arg2) :=
  (W6_of_ne m ρ c main_arg2 (by decide)).trans (entry0_arg2 (W0 m ρ c))

/-- The sum-of-squares region's first operand: the target, padded, as rows. -/
theorem squares_in_tgt (c : Dev nD) : V11 m ρ c main_v19 = rows8192 (m ((c : Thread nD τ).loc main_arg1)) :=
  (entry1_tgt (W6 m ρ c)).trans (congrArg rows8192 (kept_tgt m ρ c))

/-- Its second operand: the sparse product, padded, as rows. -/
theorem squares_in_ax (c : Dev nD) : V11 m ρ c main_v20 = rows8192 (spmv m c) :=
  (entry1_ax (W6 m ρ c)).trans (congrArg rows8192 (congrArg₂ segSum (kept_rows m ρ c)
    ((congrArg unrows (product_out m ρ c)).trans (Layouts.unrows_mulf_rows _ _))))

/-- The result buffer after the run: the quotient of the two result arrays' roots, the constant added below. -/
theorem result (c : Dev nD) :
    W13 m ρ c (Proc.devRef .tc main_v27)
      = Host.divf (Host.sqrt (shapeCast S_ ((dat1 (V11 m ρ) c).arrAt 2 cfg1.N : FVec F S1x1 .f32) shapeCasts_S1x1_S_))
          (addf (Host.sqrt (shapeCast S_ ((dat1 (V11 m ρ) c).arrAt 3 cfg1.N : FVec F S1x1 .f32) shapeCasts_S1x1_S_)) (constant S_ .f32 0x2B8CBCCC#32)) :=
  (closing (W12 m ρ c)).trans
    (congrArg₂ (fun (a b : FVec F S1x1 .f32) => Host.divf (Host.sqrt (shapeCast S_ a shapeCasts_S1x1_S_))
        (addf (Host.sqrt (shapeCast S_ b shapeCasts_S1x1_S_)) (constant S_ .f32 0x2B8CBCCC#32)))
      (W12_arr m ρ c 2) (W12_arr m ρ c 3))

end Cert.KernelIdeal.KernelValue

end
-- ==== Proof.LibTileSums.lean ====
/-
  ROW-MAJOR TILINGS OF A PADDED SUM.

  Let `N = T * R * C`.  The positions `0, …, N - 1` are laid out row-major as `T` tiles of `R` rows of `C` columns:
  the position of column `c` of row `r` of tile `t` is `(R * t + r) * C + c`, and every position below `N` is of this
  form for exactly one triple `(t, r, c)` (`tile_lt` is the bound, the two product equivalences
  `Fin T × Fin R ≃ Fin (T * R)` and `Fin (T * R) × Fin C ≃ Fin (T * R * C)` the bijection).  Hence, in any additive
  commutative monoid, the triple sum of a function over tiles, rows and columns is its sum over all `N` positions
  (`sum_tiles`).  If moreover the function vanishes at every position from `n ≤ N` on (the positions `n, …, N - 1`
  are padding), the sum over all `N` positions is the sum over the first `n` of them (`sum_pad`); the two together
  are `sum_tiles_pad`.  `sum_tiles_pad_8_1024_128` is the case `8 * 1024 * 128 = 1048576`, `n = 1000000`, with literal
  numbers throughout.
-/
import Mathlib.Data.Fintype.BigOperators
import Mathlib.Logic.Equiv.Fin.Basic
import Mathlib.Tactic.Ring

open scoped BigOperators

namespace Cert.LibTileSums

/-- Column `c < C` of row `r < R` of tile `t < T` sits at a position below `T * R * C`. -/
theorem tile_lt {T R C t r c : ℕ} (ht : t < T) (hr : r < R) (hc : c < C) :
    (R * t + r) * C + c < T * R * C := by
  have h1 : R * t + r + 1 ≤ T * R :=
    calc R * t + r + 1 ≤ R * t + R := by omega
      _ = R * (t + 1) := by ring
      _ ≤ R * T := Nat.mul_le_mul_left _ ht
      _ = T * R := Nat.mul_comm _ _
  calc (R * t + r) * C + c < (R * t + r) * C + C := by omega
    _ = (R * t + r + 1) * C := by ring
    _ ≤ T * R * C := Nat.mul_le_mul_right _ h1

/-- The triple sum over tiles, rows and columns is the sum over all positions. -/
theorem sum_tiles {M : Type*} [AddCommMonoid M] {T R C : ℕ} (h : Fin (T * R * C) → M) :
    ∑ t : Fin T, ∑ r : Fin R, ∑ c : Fin C,
        h ⟨(R * t.val + r.val) * C + c.val, tile_lt t.isLt r.isLt c.isLt⟩
      = ∑ k : Fin (T * R * C), h k := by
  rw [← (finProdFinEquiv (m := T * R) (n := C)).sum_comp h, Fintype.sum_prod_type,
    ← (finProdFinEquiv (m := T) (n := R)).sum_comp, Fintype.sum_prod_type]
  refine Finset.sum_congr rfl fun t _ => Finset.sum_congr rfl fun r _ => Finset.sum_congr rfl fun c _ => ?_
  congr 1
  apply Fin.ext
  simp only [finProdFinEquiv_apply_val]
  ring

/-- A function that vanishes from position `n` on has the same sum over all `N ≥ n` positions as over the first `n`. -/
theorem sum_pad {M : Type*} [AddCommMonoid M] {n N : ℕ} (hn : n ≤ N)
    (h : Fin N → M) (hz : ∀ k : Fin N, n ≤ k.val → h k = 0) :
    ∑ k : Fin N, h k = ∑ k : Fin n, h ⟨k.val, lt_of_lt_of_le k.isLt hn⟩ := by
  symm
  refine Fintype.sum_of_injective (Fin.castLE hn) (Fin.castLE_injective hn) _ h ?_ (fun _ => rfl)
  intro i hi
  apply hz
  by_contra hlt
  exact hi ⟨⟨i.val, Nat.lt_of_not_le hlt⟩, Fin.ext rfl⟩

/-- A function on `N = T * R * C` positions that vanishes from position `n` on, summed over the row-major tiling
into `T` tiles of `R` rows of `C` columns, is its sum over the first `n` positions. -/
theorem sum_tiles_pad {M : Type*} [AddCommMonoid M] {T R C n N : ℕ} (hN : T * R * C = N) (hn : n ≤ N)
    (h : Fin N → M) (hz : ∀ k : Fin N, n ≤ k.val → h k = 0) :
    ∑ t : Fin T, ∑ r : Fin R, ∑ c : Fin C,
        h ⟨(R * t.val + r.val) * C + c.val, lt_of_lt_of_eq (tile_lt t.isLt r.isLt c.isLt) hN⟩
      = ∑ k : Fin n, h ⟨k.val, lt_of_lt_of_le k.isLt hn⟩ := by
  subst hN
  rw [← sum_pad hn h hz]
  exact sum_tiles h

/-- The case of `8` tiles of `1024` rows of `128` columns (`1048576` positions) with the first `1000000` positions
live and the rest padding. -/
theorem sum_tiles_pad_8_1024_128 {M : Type*} [AddCommMonoid M] (h : Fin 1048576 → M)
    (hz : ∀ k : Fin 1048576, 1000000 ≤ k.val → h k = 0) :
    ∑ t : Fin 8, ∑ r : Fin 1024, ∑ c : Fin 128,
        h ⟨(1024 * t.val + r.val) * 128 + c.val, by have := t.isLt; have := r.isLt; have := c.isLt; omega⟩
      = ∑ k : Fin 1000000, h ⟨k.val, by have := k.isLt; omega⟩ :=
  sum_tiles_pad (T := 8) (R := 1024) (C := 128) (n := 1000000) (N := 1048576) (by omega) (by omega) h hz

end Cert.LibTileSums
-- ==== Proof.Totals.lean ====
/-
  The two accumulated sums re-indexed, and the kernel's result at the ideal values.

  Point t's blocks are rows 1024·t … 1024·t + 1023 of the padded row layouts, so its block sum runs over the flat
  positions (1024·t + r)·128 + q of the padded vectors. Summed over the eight points this is the sum over all 1048576
  positions; the positions from 1000000 on hold zeros in both padded vectors and contribute (0 − 0)·(0 − 0) = 0 and
  0·0 = 0, so the sums are the sums over the vectors' own 1000000 entries. Sums of extended reals commute and
  associate, so no finiteness is used.
-/
import proofs.«134563_j63780264345905_2_alg».proof.Proof.SquaresSums
import proofs.«134563_j63780264345905_2_alg».proof.Proof.SquaresBlocks
import proofs.«134563_j63780264345905_2_alg».proof.Proof.Layouts
import proofs.«134563_j63780264345905_2_alg».proof.Proof.KernelValue
import proofs.«134563_j63780264345905_2_alg».proof.Proof.LibTileSums

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Stretches Cert.KernelIdeal.Layouts Cert.KernelIdeal.SquaresSums

variable (V : (c : Dev nD) → (b : Ref sig .tc) → Buf (Elt Ideal) ((c : Thread nD τ).loc b))

/-- The squared difference of two padded vectors at a flat position. -/
def sqDiff (T AX : FVec Ideal S1000000 .f32) (k : Fin 1048576) : EReal :=
  (padded T k - padded AX k) * (padded T k - padded AX k)

/-- The square of a padded vector at a flat position. -/
def sqOf (T : FVec Ideal S1000000 .f32) (k : Fin 1048576) : EReal := padded T k * padded T k

theorem flat_lt {t r q : ℕ} (ht : t < 8) (hr : r < 1024) (hq : q < 128) : (1024 * t + r) * 128 + q < 1048576 := by omega

/-- Point t's residual block sum, over flat positions. -/
theorem resAt_eq (c : Dev nD) (T AX : FVec Ideal S1000000 .f32) (h19 : V c main_v19 = rows8192 T) (h20 : V c main_v20 = rows8192 AX)
    (t : Fin 8) :
    resAt V c t.val = ∑ r : Fin 1024, ∑ q : Fin 128, sqDiff T AX ⟨(1024 * t.val + r.val) * 128 + q.val, flat_lt t.isLt r.isLt q.isLt⟩ := by
  have ht : t.val < cfg1.N := lt_of_lt_of_eq t.isLt N_1.symm
  rw [resAt, dif_pos ht, resSum]
  refine Finset.sum_congr rfl fun r _ => Finset.sum_congr rfl fun q _ => ?_
  rw [SquaresBlocks.tgt_block V c ⟨t.val, ht⟩ r q, SquaresBlocks.ax_block V c ⟨t.val, ht⟩ r q, h19, h20, rows8192_apply, rows8192_apply]
  rfl

/-- Point t's target block sum, over flat positions. -/
theorem tgtAt_eq (c : Dev nD) (T : FVec Ideal S1000000 .f32) (h19 : V c main_v19 = rows8192 T) (t : Fin 8) :
    tgtAt V c t.val = ∑ r : Fin 1024, ∑ q : Fin 128, sqOf T ⟨(1024 * t.val + r.val) * 128 + q.val, flat_lt t.isLt r.isLt q.isLt⟩ := by
  have ht : t.val < cfg1.N := lt_of_lt_of_eq t.isLt N_1.symm
  rw [tgtAt, dif_pos ht, tgtSum]
  refine Finset.sum_congr rfl fun r _ => Finset.sum_congr rfl fun q _ => ?_
  rw [SquaresBlocks.tgt_block V c ⟨t.val, ht⟩ r q, h19, rows8192_apply]
  rfl

/-- The eight residual block sums together: the sum of the squared differences of the two vectors. -/
theorem res_sum (c : Dev nD) (T AX : FVec Ideal S1000000 .f32) (h19 : V c main_v19 = rows8192 T) (h20 : V c main_v20 = rows8192 AX) :
    ∑ s ∈ Finset.range 8, resAt V c s = ∑ k : Fin 1000000, (T (ix1 k) - AX (ix1 k)) * (T (ix1 k) - AX (ix1 k)) := by
  rw [Finset.sum_range, Finset.sum_congr rfl fun t _ => resAt_eq V c T AX h19 h20 t,
    Cert.LibTileSums.sum_tiles_pad_8_1024_128 (sqDiff T AX) (fun k hk => by
      rw [sqDiff, padded_outside T k hk, padded_outside AX k hk]; simp)]
  refine Finset.sum_congr rfl fun k _ => ?_
  rw [sqDiff, padded_inside T _ k.isLt, padded_inside AX _ k.isLt]

/-- The eight target block sums together: the sum of the squares of the vector. -/
theorem tgt_sum (c : Dev nD) (T : FVec Ideal S1000000 .f32) (h19 : V c main_v19 = rows8192 T) :
    ∑ s ∈ Finset.range 8, tgtAt V c s = ∑ k : Fin 1000000, T (ix1 k) * T (ix1 k) := by
  rw [Finset.sum_range, Finset.sum_congr rfl fun t _ => tgtAt_eq V c T h19 t,
    Cert.LibTileSums.sum_tiles_pad_8_1024_128 (sqOf T) (fun k hk => by
      rw [sqOf, padded_outside T k hk]; simp)]
  refine Finset.sum_congr rfl fun k _ => ?_
  rw [sqOf, padded_inside T _ k.isLt]

/-- A one-entry array whose entry is known, recast to rank 0, is the constant function at that entry. -/
theorem cast_const (a : FVec Ideal S1x1 .f32) (A : EReal) (ha : ∀ y, a y = A) : shapeCast S_ a shapeCasts_S1x1_S_ = fun _ => A :=
  funext fun _ => ha _

/-- The target as launched. -/
abbrev tgtOf (m : (ℓ : Loc nD τ sig) → Buf (Elt Ideal) ℓ) (c : Dev nD) : FVec Ideal S1000000 .f32 := m ((c : Thread nD τ).loc main_arg1)

/-- The quotient of the two roots, the constant added below, of two given sums. -/
def quotient (a b : FVec Ideal S_ .f32) : FVec Ideal S_ .f32 :=
  Host.divf (Host.sqrt a) (addf (Host.sqrt b) (constant S_ .f32 0x2B8CBCCC#32))

/-- The residual result array, recast: the sum of the squared residuals. -/
theorem res_array (m : (ℓ : Loc nD τ sig) → Buf (Elt Ideal) ℓ) (ρ : Dev nD → PrngReg) (c : Dev nD) :
    shapeCast S_ ((dat1 (V11 m ρ) c).arrAt 2 cfg1.N : FVec Ideal S1x1 .f32) shapeCasts_S1x1_S_
      = fun _ => ∑ k : Fin 1000000, (tgtOf m c (ix1 k) - KernelValue.spmv m c (ix1 k)) * (tgtOf m c (ix1 k) - KernelValue.spmv m c (ix1 k)) :=
  cast_const _ _ fun y => (res_total (V11 m ρ) c y).trans
    (res_sum (V11 m ρ) c _ _ (KernelValue.squares_in_tgt m ρ c) (KernelValue.squares_in_ax m ρ c))

/-- The target result array, recast: the sum of the squared targets. -/
theorem tgt_array (m : (ℓ : Loc nD τ sig) → Buf (Elt Ideal) ℓ) (ρ : Dev nD → PrngReg) (c : Dev nD) :
    shapeCast S_ ((dat1 (V11 m ρ) c).arrAt 3 cfg1.N : FVec Ideal S1x1 .f32) shapeCasts_S1x1_S_
      = fun _ => ∑ k : Fin 1000000, tgtOf m c (ix1 k) * tgtOf m c (ix1 k) :=
  cast_const _ _ fun y => (tgt_total (V11 m ρ) c y).trans (tgt_sum (V11 m ρ) c _ (KernelValue.squares_in_tgt m ρ c))

/-- THE KERNEL'S RESULT at the ideal values: the root of the sum of squared residuals over the root of the target's sum of
    squares plus the constant. -/
theorem kernel_result (m : (ℓ : Loc nD τ sig) → Buf (Elt Ideal) ℓ) (ρ : Dev nD → PrngReg) (c : Dev nD) :
    W13 m ρ c (Proc.devRef .tc main_v27)
      = quotient (fun _ => ∑ k : Fin 1000000, (tgtOf m c (ix1 k) - KernelValue.spmv m c (ix1 k)) * (tgtOf m c (ix1 k) - KernelValue.spmv m c (ix1 k)))
          (fun _ => ∑ k : Fin 1000000, tgtOf m c (ix1 k) * tgtOf m c (ix1 k)) :=
  (KernelValue.result m ρ c).trans (congrArg₂ quotient (res_array m ρ c) (tgt_array m ρ c))

end Cert.KernelIdeal.Totals

end
-- ==== Proof.RefSide.lean ====
/-
  The reference's result as one function of its arguments, and at the ideal values as finite sums.

  The reference gathers `preds` at the column numbers (negative ones wrapped), multiplies by the values, sums the products
  into the rows' segments, subtracts that from the target, and returns the root of the residual's sum of squares over the
  root of the target's sum of squares plus a constant. At the ideal values a sum over every axis from the zero is the
  plain finite sum over the positions.
-/
import proofs.«134563_j63780264345905_2_alg».proof.Proof.Gen.ReferenceIdeal.Run
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.RefSide

open Cert.ReferenceIdeal Cert.ReferenceIdeal.Gen

variable {F : FTy → Type} [FloatOps F]

/-- The sparse product: the values times the gathered predictions, summed into the rows' segments from zero. -/
def spmv (preds : FVec F S1000000 .f32) (rows cols : IVec S32000000 32) (vals : FVec F S32000000 .f32) : FVec F S1000000 .f32 :=
  Host.scatterAdd scatter_S1000000_S32000000x1_S32000000_n_0_0_1
    (broadcastInDim S1000000 ![] bcast_S_S1000000 (constant S_ .f32 0x00000000#32))
    (broadcastInDim S32000000x1 ![0] bcast_S32000000_S32000000x1_0 rows)
    (mulf vals (Host.gather gather_S1000000_S32000000x1_S32000000_n_0_n_n_0_1_1 preds
      (broadcastInDim S32000000x1 ![0] bcast_S32000000_S32000000x1_0
        (select (cmpi .slt cols (broadcastInDim S32000000 ![] bcast_S_S32000000 (constantI S_ 32 0#32)))
          (addi cols (broadcastInDim S32000000 ![] bcast_S_S32000000 (constantI S_ 32 1000000#32))) cols))))

/-- The root of a vector's sum of squares, as the host computes it. -/
def rootSumSq (x : FVec F S1000000 .f32) : FVec F S_ .f32 :=
  Host.sqrt (Host.reduceAdd (mulf x x) (constant S_ .f32 0x00000000#32) reducesTo_S1000000_S_d0 h_S_)

/-- The reference's result: the residual's root sum of squares over the target's plus the constant. -/
def loss (preds tgt : FVec F S1000000 .f32) (rows cols : IVec S32000000 32) (vals : FVec F S32000000 .f32) : FVec F S_ .f32 :=
  Host.divf (rootSumSq (subf tgt (spmv preds rows cols vals))) (addf (rootSumSq tgt) (constant S_ .f32 0x2B8CBCCC#32))

/-- The reference's run ends with its result at `loss` of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = loss (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h0 := Cert.ReferenceIdeal.Value.run (F := F) m ρ
  refine (θ_run defs _ _).mono (fun r h c => ?_) h0
  have h1 := h c
  refine ⟨?_, h1.2⟩
  exact h1.1

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) : ∑ i, f i = ∑ a : Fin n, f (ix1 a) := by
  rw [← Equiv.sum_comp (idxEquiv1 (n := n)).symm f]
  rfl

/-- At the ideal values the host's sum of a vector from the zero is the finite sum of its entries. -/
theorem sum_apply (x : FVec Ideal S1000000 .f32) (i : S_.Idx) :
    Host.reduceAdd x (constant S_ .f32 0x00000000#32) reducesTo_S1000000_S_d0 h_S_ i = ∑ k : Fin 1000000, x (ix1 k) := by
  simp only [Host.reduceAdd, Ideal.hostReduceAdd_def]
  rw [Ideal.hostReduceAdd_total reducesTo_S1000000_S_d0 (fun b => b.elim0)]
  simp only [constant, Ideal.ofBits_def, Ideal.ofBits_zero_f32, zero_add]
  exact sum_idx1 _

/-- The host's sum of squares at the ideal values. -/
theorem sumSq_apply (x : FVec Ideal S1000000 .f32) (i : S_.Idx) :
    Host.reduceAdd (mulf x x) (constant S_ .f32 0x00000000#32) reducesTo_S1000000_S_d0 h_S_ i = ∑ k : Fin 1000000, x (ix1 k) * x (ix1 k) :=
  (sum_apply (mulf x x) i).trans (Finset.sum_congr rfl fun k _ => rfl)

/-- The host's sum of squared differences at the ideal values. -/
theorem sumSqDiff_apply (x y : FVec Ideal S1000000 .f32) (i : S_.Idx) :
    Host.reduceAdd (mulf (subf x y) (subf x y)) (constant S_ .f32 0x00000000#32) reducesTo_S1000000_S_d0 h_S_ i
      = ∑ k : Fin 1000000, (x (ix1 k) - y (ix1 k)) * (x (ix1 k) - y (ix1 k)) :=
  (sum_apply (mulf (subf x y) (subf x y)) i).trans (Finset.sum_congr rfl fun k _ => rfl)

/-- The quotient of the two roots, the constant added below, of two given sums. -/
def quotient (a b : FVec F S_ .f32) : FVec F S_ .f32 :=
  Host.divf (Host.sqrt a) (addf (Host.sqrt b) (constant S_ .f32 0x2B8CBCCC#32))

/-- The residual's root sum of squares over the target's plus the constant, with both sums as finite sums. -/
theorem quotient_eq (tgt ax : FVec Ideal S1000000 .f32) :
    Host.divf (rootSumSq (subf tgt ax)) (addf (rootSumSq tgt) (constant S_ .f32 0x2B8CBCCC#32))
      = quotient (fun _ => ∑ k : Fin 1000000, (tgt (ix1 k) - ax (ix1 k)) * (tgt (ix1 k) - ax (ix1 k)))
          (fun _ => ∑ k : Fin 1000000, tgt (ix1 k) * tgt (ix1 k)) :=
  congrArg₂ quotient (funext (sumSqDiff_apply tgt ax)) (funext (sumSq_apply tgt))

/-- So the reference's result at the ideal values. -/
theorem loss_eq (preds tgt : FVec Ideal S1000000 .f32) (rows cols : IVec S32000000 32) (vals : FVec Ideal S32000000 .f32) :
    loss preds tgt rows cols vals
      = quotient (fun _ => ∑ k : Fin 1000000, (tgt (ix1 k) - spmv preds rows cols vals (ix1 k)) * (tgt (ix1 k) - spmv preds rows cols vals (ix1 k)))
          (fun _ => ∑ k : Fin 1000000, tgt (ix1 k) * tgt (ix1 k)) :=
  quotient_eq tgt (spmv preds rows cols vals)

end Cert.ReferenceIdeal.RefSide

end
-- ==== Proof.lean ====
/-
  The claim: the word-level kernel, its idealization and the reference each run to the end without a fault and leave
  their arguments as launched; the idealization rewrote nothing; and at the ideal values the idealized kernel and the
  reference, run from memories that agree on the arguments, end with the same result.

  The kernel computes the residual loss of a sparse system in two regions. The first multiplies the values by the
  gathered predictions, blockwise over zero-padded row layouts; the host sums the products into the rows' segments. The
  second accumulates, over eight row blocks of the zero-padded target and sparse product, the sum of squared residuals
  and the sum of squared targets; the host takes the two roots, adds the constant and divides. The reference does the
  same without padding or blocking. The padded positions contribute zeros to both sums, and finite sums of extended
  reals may be regrouped freely, so both programs end at the root of the sum of squared residuals over the root of the
  sum of squared targets plus the constant — entry by entry the same extended real.
-/
import proofs.«134563_j63780264345905_2_alg».proof.Defs
import proofs.«134563_j63780264345905_2_alg».proof.Proof.Gen.Kernel
import proofs.«134563_j63780264345905_2_alg».proof.Proof.Gen.Kernel.Skeleton
import proofs.«134563_j63780264345905_2_alg».proof.Proof.Gen.Kernel.Launch
import proofs.«134563_j63780264345905_2_alg».proof.Proof.Gen.Kernel.Points
import proofs.«134563_j63780264345905_2_alg».proof.Proof.Gen.Kernel.Frame
import proofs.«134563_j63780264345905_2_alg».proof.Proof.Gen.KernelIdeal
import proofs.«134563_j63780264345905_2_alg».proof.Proof.Gen.KernelIdeal.Skeleton
import proofs.«134563_j63780264345905_2_alg».proof.Proof.Gen.KernelIdeal.Launch
import proofs.«134563_j63780264345905_2_alg».proof.Proof.Gen.KernelIdeal.Points
import proofs.«134563_j63780264345905_2_alg».proof.Proof.Gen.KernelIdeal.Frame
import proofs.«134563_j63780264345905_2_alg».proof.Proof.Gen.ReferenceIdeal
import proofs.«134563_j63780264345905_2_alg».proof.Proof.Gen.ReferenceIdeal.Run
import proofs.«134563_j63780264345905_2_alg».proof.Proof.Gen.Pre_finite_inputs
import proofs.«134563_j63780264345905_2_alg».proof.Proof.KernelRun
import proofs.«134563_j63780264345905_2_alg».proof.Proof.Totals
import proofs.«134563_j63780264345905_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The sparse product is spelt by the same operations in both programs. -/
theorem spmv_same (m : (ℓ : Loc Cert.KernelIdeal.nD Cert.KernelIdeal.τ Cert.KernelIdeal.sig) → Buf (Elt Ideal) ℓ) (c : Dev Cert.KernelIdeal.nD) :
    Cert.KernelIdeal.KernelValue.spmv m c
      = Cert.ReferenceIdeal.RefSide.spmv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := rfl

/-- At the ideal values the kernel's result buffer ends at the root of the sum of squared residuals over the root of the
    target's sum of squares plus the constant (the kernel's run read back), and so does the reference's (its run read
    back), of arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v27), Cert.KernelIdeal.Run.run_main m ρ, ?_⟩
  refine (θ_run Cert.ReferenceIdeal.defs _ _).mono (fun _ h c => ⟨(h c).1.trans ?_, (h c).2⟩)
    (Cert.ReferenceIdeal.RefSide.run (F := Ideal) m' ρ')
  rw [(hagree c).1, (hagree c).2.1, (hagree c).2.2.1, (hagree c).2.2.2.1, (hagree c).2.2.2.2.1]
  refine ((Cert.ReferenceIdeal.RefSide.loss_eq _ _ _ _ _).trans ?_).trans (Cert.KernelIdeal.Totals.kernel_result m ρ c).symm
  rw [spmv_same m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
